-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x1024x1024 : Shape := ⟨3, ![8, 1024, 1024]⟩
abbrev S1024x2048 : Shape := ⟨2, ![1024, 2048]⟩
abbrev S1024 : Shape := ⟨1, ![1024]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x1024x2048 .f32) (main_arg1 : FVec F S8x1024x1024 .f32) (main_arg2 : FVec F S1024x2048 .f32) (main_arg3 : FVec F S1024 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x1024x2048 : Shape := ⟨3, ![8, 1024, 2048]⟩
abbrev S8x1024x1024 : Shape := ⟨3, ![8, 1024, 1024]⟩
abbrev S1024x2048 : Shape := ⟨2, ![1024, 2048]⟩
abbrev S1024 : Shape := ⟨1, ![1024]⟩
abbrev S1x1024 : Shape := ⟨2, ![1, 1024]⟩
abbrev S1x256x2048 : Shape := ⟨3, ![1, 256, 2048]⟩
abbrev S1x1024x1024 : Shape := ⟨3, ![1, 1024, 1024]⟩
abbrev S1x256x1024 : Shape := ⟨3, ![1, 256, 1024]⟩
abbrev S256x2048 : Shape := ⟨2, ![256, 2048]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x1024x2048, .f32⟩
  | .hbm, ⟨1, _⟩ => ⟨S8x1024x1024, .f32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S8x1024x1024, .f32⟩
  | .local _ .vmem, ⟨0, _⟩ => ⟨S1x256x2048, .f32⟩
  | .local _ .vmem, ⟨1, _⟩ => ⟨S1x256x2048, .f32⟩
  | .local _ .vmem, ⟨2, _⟩ => ⟨S1024x2048, .f32⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x256x1024, .f32⟩
  | .local _ .vmem, ⟨7, _⟩ => ⟨S1x256x1024, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1024 : S1024.ShapeCasts S1x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  broadcasts_S256x1_S256x1024 : S256x1.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x2048_S1024x2048_S256x1024_1_1_0_0_n_n_wf : DotDims.WF S256x2048 S1024x2048 S256x1024 [1] [1] [0] [0] [] []
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .f32 = 32 ∨ (Rect.block (s := S8x1024x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x1024x1024.size a
  hwx0_4 : ∀ i : grid0.Coords, EltTy.bits .f32 = 32 ∨ (Rect.block (s := S8x1024x1024) S1x256x1024.size (cc0_transform_4 i) (hinb0_4 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x1024x1024 : Shape := ⟨3, ![8, 1024, 1024]⟩
abbrev S1024x2048 : Shape := ⟨2, ![1024, 2048]⟩
abbrev S1024 : Shape := ⟨1, ![1024]⟩
abbrev S1x1x1024 : Shape := ⟨3, ![1, 1, 1024]⟩
abbrev S_ : Shape := ⟨0, ![]⟩
abbrev S8x1024 : Shape := ⟨2, ![8, 1024]⟩
abbrev S8x1024x1 : Shape := ⟨3, ![8, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x1024x1024, .f32⟩
  | .hbm, ⟨2, _⟩ => ⟨S1024x2048, .f32⟩
  | .hbm, ⟨3, _⟩ => ⟨S1024, .f32⟩
  | .hbm, ⟨4, _⟩ => ⟨S8x1024x1024, .f32⟩
  | .hbm, ⟨5, _⟩ => ⟨S1x1x1024, .f32⟩
  | .hbm, ⟨6, _⟩ => ⟨S8x1024x1024, .f32⟩
  | .hbm, ⟨7, _⟩ => ⟨S8x1024x1024, .f32⟩
  | .hbm, ⟨8, _⟩ => ⟨S8x1024x1024, .f32⟩
  | .hbm, ⟨9, _⟩ => ⟨S_, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024x1, .f32⟩
  | .hbm, ⟨15, _⟩ => ⟨S8x1024x1024, .f32⟩
  | .hbm, ⟨16, _⟩ => ⟨S8x1024x1024, .f32⟩
  | .hbm, ⟨17, _⟩ => ⟨S8x1024x1024, .f32⟩
  | .hbm, ⟨18, _⟩ => ⟨S_, .f32⟩
  | .hbm, ⟨19, _⟩ => ⟨S8x1024, .f32⟩
  | .hbm, ⟨20, _⟩ => ⟨S8x1024x1, .f32⟩
  | .hbm, ⟨21, _⟩ => ⟨S8x1024x1024, .f32⟩
  | .hbm, ⟨22, _⟩ => ⟨S8x1024x1024, .f32⟩
  | .hbm, ⟨23, _⟩ => ⟨S8x1024x1024, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  dot_S8x1024x2048_S1024x2048_S8x1024x1024_2_1_01_0_n_n_wf : DotDims.WF S8x1024x2048 S1024x2048 S8x1024x1024 [2] [1] [0, 1] [0] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_2_1_1_2_0_0_wf : DotDims.WF S8x1024x1024 S8x1024x1024 S8x1024x1024 [2] [1] [1] [2] [0] [0]

variable [Facts₀]

def dot_S8x1024x2048_S1024x2048_S8x1024x1024_2_1_01_0_n_n : DotDims S8x1024x2048 S1024x2048 S8x1024x1024 where
  lhsContracting := [2]
  rhsContracting := [1]
  lhsNonContracting := [0, 1]
  rhsNonContracting := [0]
  lhsBatch := []
  rhsBatch := []
  wf := dot_S8x1024x2048_S1024x2048_S8x1024x1024_2_1_01_0_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.Spec.lean ====
/-
  The function both programs compute, written once, free of either program's layout.

  One query row against one batch of text.  Given the row's visual features `xr d`, the projection weights
  `W t d`, the bias `bias t` and the batch's text features `tx n t`:
    • the projected query        q t  = (∑ d, xr d · W t d) + bias t
    • the scores                 s n  = ∑ t, q t · tx n t
    • their maximum              M    = max over n of s n, folded from -∞
    • the unnormalised weights   e n  = exp (s n - M)
    • their sum                  L    = ∑ n, e n
    • the attended text          o t  = ∑ n, (e n / L) · tx n t
  all on the extended reals.  `attend` is the whole output array: entry (b, v, t) is `rowOut` of row (b, v) of the
  visual features against batch b of the text.
-/
import Idealize.ShloMosaic.PureOps.Ideal
import Idealize.ShloMosaic.PureOps.Ideal.Laws
import Idealize.ShloMosaic.Lib.ValueIdx

noncomputable section

namespace Cert.CrossAttn

open Idealize.ShloMosaic Idealize.ShloMosaic.ValueIdx

/-- The projected query of one row: `(∑ d, xr d · W t d) + bias t`. -/
def rowProj (xr : Fin 2048 → EReal) (W : Fin 1024 → Fin 2048 → EReal) (bias : Fin 1024 → EReal) (t : Fin 1024) : EReal :=
  (∑ d : Fin 2048, xr d * W t d) + bias t

/-- The row's score against text position `n`: `∑ t, q t · tx n t`. -/
def rowScore (xr : Fin 2048 → EReal) (W : Fin 1024 → Fin 2048 → EReal) (bias : Fin 1024 → EReal)
    (tx : Fin 1024 → Fin 1024 → EReal) (n : Fin 1024) : EReal :=
  ∑ t : Fin 1024, rowProj xr W bias t * tx n t

/-- The row's greatest score, folded from the value of the pattern `0xFF800000` (which is -∞). -/
def rowMax (xr : Fin 2048 → EReal) (W : Fin 1024 → Fin 2048 → EReal) (bias : Fin 1024 → EReal)
    (tx : Fin 1024 → Fin 1024 → EReal) : EReal :=
  (Finset.univ : Finset (Fin 1024)).fold max (Ideal.ofBits .f32 0xFF800000#32) (rowScore xr W bias tx)

/-- The unnormalised weight of text position `n`: `exp (s n - M)`. -/
def rowExp (xr : Fin 2048 → EReal) (W : Fin 1024 → Fin 2048 → EReal) (bias : Fin 1024 → EReal)
    (tx : Fin 1024 → Fin 1024 → EReal) (n : Fin 1024) : EReal :=
  Ideal.exp (rowScore xr W bias tx n - rowMax xr W bias tx)

/-- The sum of the row's unnormalised weights. -/
def rowDen (xr : Fin 2048 → EReal) (W : Fin 1024 → Fin 2048 → EReal) (bias : Fin 1024 → EReal)
    (tx : Fin 1024 → Fin 1024 → EReal) : EReal :=
  ∑ n : Fin 1024, rowExp xr W bias tx n

/-- The row's attended text feature `t`: `∑ n, (e n / L) · tx n t`. -/
def rowOut (xr : Fin 2048 → EReal) (W : Fin 1024 → Fin 2048 → EReal) (bias : Fin 1024 → EReal)
    (tx : Fin 1024 → Fin 1024 → EReal) (t : Fin 1024) : EReal :=
  ∑ n : Fin 1024, Ideal.div (rowExp xr W bias tx n) (rowDen xr W bias tx) * tx n t

/-- The whole output: entry (b, v, t) attends row (b, v) of the visual features to batch b of the text. -/
def attend (vis : (⟨3, ![8, 1024, 2048]⟩ : Shape).Idx → EReal) (text : (⟨3, ![8, 1024, 1024]⟩ : Shape).Idx → EReal)
    (W : (⟨2, ![1024, 2048]⟩ : Shape).Idx → EReal) (bias : (⟨1, ![1024]⟩ : Shape).Idx → EReal) :
    (⟨3, ![8, 1024, 1024]⟩ : Shape).Idx → EReal :=
  fun i => rowOut (fun d => vis (ix3 (i 0) (i 1) d)) (fun t d => W (ix2 t d)) (fun t => bias (ix1 t))
    (fun n t => text (ix3 (i 0) n t)) (i 2)

/-- A fold of `max` is at least the value it starts from, so taking the maximum with that value once more changes
    nothing. -/
theorem max_fold_max {ι : Type} (s : Finset ι) (b : EReal) (f : ι → EReal) :
    max b (s.fold max b f) = s.fold max b f :=
  max_eq_right ((Finset.le_fold_max b).mpr (Or.inl le_rfl))

end Cert.CrossAttn

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.BlockDots.lean ====
/-
  What the kernel body computes on one grid point's blocks, read at an index.

  At a grid point the body holds a block of 256 rows of the visual features (one batch), the whole weight matrix, the
  bias as one row, and the whole text of the same batch.  Its stored value, read at row r and column t of the block, is
  `rowOut` of `Spec.lean` for the r-th row of the visual block against the text block:
    • each of the three matrix products, accumulated from zero, is at an entry the sum over its one contracted
      coordinate of the operands' products (a change of float format is the identity on the extended reals);
    • the bias row is broadcast down the 256 rows;
    • the maximum and the sum along a row are a fold of `max` from -∞ and a sum over the row's 1024 entries; kept as
      a column and broadcast back along the row, each reads, at (r, n), the value of row r;
    • a leading unit axis added or dropped by a cast changes no entry.
-/
import proofs.«110933_j42391327212018_2_alg».proof.Proof.Gen.KernelIdeal.Skeleton
import proofs.«110933_j42391327212018_2_alg».proof.Proof.Spec
import proofs.«110933_j42391327212018_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.CrossAttn.Block

open Cert.KernelIdeal Cert.KernelIdeal.Gen Idealize.ShloMosaic Idealize.ShloMosaic.ValueIdx Cert.CrossAttn Cert.LibColumn

/-! ## The three matrix products at an entry -/

/-- Two indices of a rank-2 shape with the same coordinates are equal. -/
theorem idx2_ext {n0 n1 : Nat} (f g : (⟨2, ![n0, n1]⟩ : Shape).Idx) (h0 : (f 0).val = (g 0).val)
    (h1 : (f 1).val = (g 1).val) : f = g :=
  funext fun a => Fin.ext (by match a with | ⟨0, _⟩ => exact h0 | ⟨1, _⟩ => exact h1)

/-- Rows of the visual block against rows of the weights, contracted over the 2048 features:
    entry (r, t) is `∑ k, L (r, k) · R (t, k)`. -/
theorem projDot_apply (L : FVec Ideal S256x2048 .bf16) (R : FVec Ideal S1024x2048 .bf16) (r : Fin 256) (t : Fin 1024) :
    matmul dot_S256x2048_S1024x2048_S256x1024_1_1_0_0_n_n none L R (constant (F := Ideal) S256x1024 .f32 0x00000000#32) (ix2 r t)
      = ∑ k : Fin 2048, L (ix2 r k) * R (ix2 t k) := by
  refine (Ideal.matmul_constant_zero_apply dot_S256x2048_S1024x2048_S256x1024_1_1_0_0_n_n none L R (ix2 r t)).trans ?_
  rw [← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 r t)
      ((contrEquiv1 dot_S256x2048_S1024x2048_S256x1024_1_1_0_0_n_n 2048 rfl rfl).symm k) = ix2 r k :=
    idx2_ext _ _
      (by unfold DotDims.lhsIdx
          rw [dif_neg (show ¬(0 : Fin S256x2048.rank) ∈ dot_S256x2048_S1024x2048_S256x1024_1_1_0_0_n_n.lhsBatch by decide),
            dif_pos (show (0 : Fin S256x2048.rank) ∈ dot_S256x2048_S1024x2048_S256x1024_1_1_0_0_n_n.lhsNonContracting by decide)]
          rfl)
      ((dot_S256x2048_S1024x2048_S256x1024_1_1_0_0_n_n.lhsIdx_val_of_single rfl _ _).trans hk)
  have er : dot_S256x2048_S1024x2048_S256x1024_1_1_0_0_n_n.rhsIdx (ix2 r t)
      ((contrEquiv1 dot_S256x2048_S1024x2048_S256x1024_1_1_0_0_n_n 2048 rfl rfl).symm k) = ix2 t k :=
    idx2_ext _ _
      (by unfold DotDims.rhsIdx
          rw [dif_neg (show ¬(0 : Fin S1024x2048.rank) ∈ dot_S256x2048_S1024x2048_S256x1024_1_1_0_0_n_n.rhsBatch by decide),
            dif_pos (show (0 : Fin S1024x2048.rank) ∈ dot_S256x2048_S1024x2048_S256x1024_1_1_0_0_n_n.rhsNonContracting by decide)]
          rfl)
      ((dot_S256x2048_S1024x2048_S256x1024_1_1_0_0_n_n.rhsIdx_val_of_single rfl _ _).trans hk)
  rw [el, er]

/-- Projected queries against rows of the text, contracted over the 1024 projected features:
    entry (r, n) is `∑ k, L (r, k) · R (n, k)`. -/
theorem scoreDot_apply (L : FVec Ideal S256x1024 .bf16) (R : FVec Ideal S1024x1024 .bf16) (r : Fin 256) (n : Fin 1024) :
    matmul dot_S256x1024_S1024x1024_S256x1024_1_1_0_0_n_n none L R (constant (F := Ideal) S256x1024 .f32 0x00000000#32) (ix2 r n)
      = ∑ k : Fin 1024, L (ix2 r k) * R (ix2 n k) := by
  refine (Ideal.matmul_constant_zero_apply dot_S256x1024_S1024x1024_S256x1024_1_1_0_0_n_n none L R (ix2 r n)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r n)
      ((contrEquiv1 dot_S256x1024_S1024x1024_S256x1024_1_1_0_0_n_n 1024 rfl rfl).symm k) = ix2 r k :=
    idx2_ext _ _
      (by unfold DotDims.lhsIdx
          rw [dif_neg (show ¬(0 : Fin S256x1024.rank) ∈ dot_S256x1024_S1024x1024_S256x1024_1_1_0_0_n_n.lhsBatch by decide),
            dif_pos (show (0 : Fin S256x1024.rank) ∈ dot_S256x1024_S1024x1024_S256x1024_1_1_0_0_n_n.lhsNonContracting by decide)]
          rfl)
      ((dot_S256x1024_S1024x1024_S256x1024_1_1_0_0_n_n.lhsIdx_val_of_single rfl _ _).trans hk)
  have er : dot_S256x1024_S1024x1024_S256x1024_1_1_0_0_n_n.rhsIdx (ix2 r n)
      ((contrEquiv1 dot_S256x1024_S1024x1024_S256x1024_1_1_0_0_n_n 1024 rfl rfl).symm k) = ix2 n k :=
    idx2_ext _ _
      (by unfold DotDims.rhsIdx
          rw [dif_neg (show ¬(0 : Fin S1024x1024.rank) ∈ dot_S256x1024_S1024x1024_S256x1024_1_1_0_0_n_n.rhsBatch by decide),
            dif_pos (show (0 : Fin S1024x1024.rank) ∈ dot_S256x1024_S1024x1024_S256x1024_1_1_0_0_n_n.rhsNonContracting by decide)]
          rfl)
      ((dot_S256x1024_S1024x1024_S256x1024_1_1_0_0_n_n.rhsIdx_val_of_single rfl _ _).trans hk)
  rw [el, er]

/-- Weights against columns of the text, contracted over the 1024 text positions:
    entry (r, t) is `∑ k, L (r, k) · R (k, t)`. -/
theorem mixDot_apply (L : FVec Ideal S256x1024 .bf16) (R : FVec Ideal S1024x1024 .bf16) (r : Fin 256) (t : Fin 1024) :
    matmul dot_S256x1024_S1024x1024_S256x1024_1_0_0_1_n_n none L R (constant (F := Ideal) S256x1024 .f32 0x00000000#32) (ix2 r t)
      = ∑ k : Fin 1024, L (ix2 r k) * R (ix2 k t) := by
  refine (Ideal.matmul_constant_zero_apply dot_S256x1024_S1024x1024_S256x1024_1_0_0_1_n_n none L R (ix2 r t)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r t)
      ((contrEquiv1 dot_S256x1024_S1024x1024_S256x1024_1_0_0_1_n_n 1024 rfl rfl).symm k) = ix2 r k :=
    idx2_ext _ _
      (by unfold DotDims.lhsIdx
          rw [dif_neg (show ¬(0 : Fin S256x1024.rank) ∈ dot_S256x1024_S1024x1024_S256x1024_1_0_0_1_n_n.lhsBatch by decide),
            dif_pos (show (0 : Fin S256x1024.rank) ∈ dot_S256x1024_S1024x1024_S256x1024_1_0_0_1_n_n.lhsNonContracting by decide)]
          rfl)
      ((dot_S256x1024_S1024x1024_S256x1024_1_0_0_1_n_n.lhsIdx_val_of_single rfl _ _).trans hk)
  have er : dot_S256x1024_S1024x1024_S256x1024_1_0_0_1_n_n.rhsIdx (ix2 r t)
      ((contrEquiv1 dot_S256x1024_S1024x1024_S256x1024_1_0_0_1_n_n 1024 rfl rfl).symm k) = ix2 k t :=
    idx2_ext _ _
      ((dot_S256x1024_S1024x1024_S256x1024_1_0_0_1_n_n.rhsIdx_val_of_single rfl _ _).trans hk)
      (by unfold DotDims.rhsIdx
          rw [dif_neg (show ¬(1 : Fin S1024x1024.rank) ∈ dot_S256x1024_S1024x1024_S256x1024_1_0_0_1_n_n.rhsBatch by decide),
            dif_pos (show (1 : Fin S1024x1024.rank) ∈ dot_S256x1024_S1024x1024_S256x1024_1_0_0_1_n_n.rhsNonContracting by decide)]
          rfl)
  rw [el, er]

end Cert.CrossAttn.Block

end
-- ==== Proof.BlockValue.lean ====
/-
  The body's stored value at an entry of the block is `rowOut` of the block's rows.

  The body's arithmetic is cut here into its stages — projected queries, scores, row maximum, weights, row sum,
  normalised weights, attended text — each a definition over the loaded blocks, and the stored value is the last stage
  with a leading unit axis added.  Each stage read at an entry is the matching stage of `Spec.lean` for row r of the
  visual block: the matrix products by `BlockDots.lean`; a change of float format is the identity; the bias row is
  broadcast down the rows; a row reduction kept as a column and broadcast back along the row reads the row's value.
-/
import proofs.«110933_j42391327212018_2_alg».proof.Proof.BlockDots

noncomputable section

namespace Cert.CrossAttn.Block

open Cert.KernelIdeal Cert.KernelIdeal.Gen Idealize.ShloMosaic Idealize.ShloMosaic.ValueIdx Cert.CrossAttn Cert.LibColumn

variable (v0 : Vec Ideal S1x256x2048 .f32) (v3 : Vec Ideal S1024x2048 .f32) (v6 : Vec Ideal S1x1024 .f32)
  (v11 : Vec Ideal S1x1024x1024 .f32)

/-! ## The stages of the body -/

/-- The text block as a matrix, in the matrix unit's input format. -/
def textMat : FVec Ideal S1024x1024 .bf16 :=
  truncf .bf16 (shapeCast S1024x1024 v11 shapeCasts_S1x1024x1024_S1024x1024) bitsLt_bf16_f32

/-- The block's projected queries: visual rows times the weights' rows, plus the bias row on every row. -/
def projBlk : FVec Ideal S256x1024 .f32 :=
  addf
    (matmul dot_S256x2048_S1024x2048_S256x1024_1_1_0_0_n_n none
      (truncf .bf16 (shapeCast S256x2048 v0 shapeCasts_S1x256x2048_S256x2048) bitsLt_bf16_f32)
      (truncf .bf16 v3 bitsLt_bf16_f32) (constant S256x1024 .f32 0x00000000#32))
    (broadcastTo S256x1024 (shapeCast S1x1024 v6 shapeCasts_S1x1024_S1x1024) broadcasts_S1x1024_S256x1024)

/-- The block's scores: projected queries against the text's rows. -/
def scoreBlk : FVec Ideal S256x1024 .f32 :=
  matmul dot_S256x1024_S1024x1024_S256x1024_1_1_0_0_n_n none (truncf .bf16 (projBlk v0 v3 v6) bitsLt_bf16_f32)
    (textMat v11) (constant S256x1024 .f32 0x00000000#32)

/-- Each row's greatest score. -/
def maxBlk : FVec Ideal S256 .f32 :=
  multiReduction .maximumf [1] S256 (scoreBlk v0 v3 v6 v11) 0xFF800000#32 reduces_S256x1024_S256 (.inl rfl) rfl

/-- The unnormalised weights: the exponential of each score less its row's maximum. -/
def expBlk : FVec Ideal S256x1024 .f32 :=
  exp (subf (scoreBlk v0 v3 v6 v11)
    (broadcastTo S256x1024 (shapeCast S256x1 (maxBlk v0 v3 v6 v11) shapeCasts_S256_S256x1) broadcasts_S256x1_S256x1024))

/-- Each row's sum of unnormalised weights. -/
def denBlk : FVec Ideal S256 .f32 :=
  multiReduction .add [1] S256 (expBlk v0 v3 v6 v11) 0x00000000#32 reduces_S256x1024_S256 (.inl rfl) rfl

/-- The normalised weights. -/
def weightBlk : FVec Ideal S256x1024 .f32 :=
  divf (expBlk v0 v3 v6 v11)
    (broadcastTo S256x1024 (shapeCast S256x1 (denBlk v0 v3 v6 v11) shapeCasts_S256_S256x1) broadcasts_S256x1_S256x1024)

/-- The attended text: normalised weights against the text's columns. -/
def outBlk : FVec Ideal S256x1024 .f32 :=
  matmul dot_S256x1024_S1024x1024_S256x1024_1_0_0_1_n_n none (truncf .bf16 (weightBlk v0 v3 v6 v11) bitsLt_bf16_f32)
    (textMat v11) (constant S256x1024 .f32 0x00000000#32)

/-- The body's stored value is the last stage with a leading unit axis. -/
theorem pay_eq : k0_pay1 (F := Ideal) v0 v3 v6 v11
    = shapeCast S1x256x1024 (outBlk v0 v3 v6 v11) shapeCasts_S256x1024_S1x256x1024 := rfl

/-! ## The blocks by coordinates -/

/-- Row r of the visual block. -/
abbrev blkRow (r : Fin 256) : Fin 2048 → EReal := fun d => v0 (ix3 (0 : Fin 1) r d)
/-- The weights by coordinates. -/
abbrev blkW : Fin 1024 → Fin 2048 → EReal := fun t d => v3 (ix2 t d)
/-- The bias row by coordinate. -/
abbrev blkBias : Fin 1024 → EReal := fun t => v6 (ix2 (0 : Fin 1) t)
/-- The text block by coordinates. -/
abbrev blkText : Fin 1024 → Fin 1024 → EReal := fun n t => v11 (ix3 (0 : Fin 1) n t)

/-! ## Each stage at an entry -/

theorem textMat_apply (n t : Fin 1024) : textMat v11 (ix2 n t) = blkText v11 n t :=
  shapeCast_1ab_ab_apply v11 shapeCasts_S1x1024x1024_S1024x1024 n t

theorem projBlk_apply (r : Fin 256) (t : Fin 1024) :
    projBlk v0 v3 v6 (ix2 r t) = rowProj (blkRow v0 r) (blkW v3) (blkBias v6) t := by
  unfold projBlk rowProj
  refine (addf_apply _ _ _).trans (congrArg₂ (· + ·) ((projDot_apply _ _ r t).trans (Finset.sum_congr rfl fun k _ => ?_)) ?_)
  · exact congrArg (· * v3 (ix2 t k)) (shapeCast_1ab_ab_apply v0 shapeCasts_S1x256x2048_S256x2048 r k)
  · refine (broadcastTo_1b_ab_apply _ broadcasts_S1x1024_S256x1024 r t).trans ?_
    rw [shapeCast_self]

theorem scoreBlk_apply (r : Fin 256) (n : Fin 1024) :
    scoreBlk v0 v3 v6 v11 (ix2 r n) = rowScore (blkRow v0 r) (blkW v3) (blkBias v6) (blkText v11) n := by
  unfold scoreBlk rowScore
  refine (scoreDot_apply _ _ r n).trans (Finset.sum_congr rfl fun k _ => ?_)
  exact congrArg₂ (· * ·) (projBlk_apply v0 v3 v6 r k) (textMat_apply v11 n k)

/-- Row r's index set under the reduction along the row: position n of the row is entry (r, n). -/
theorem lift_row (r : Fin 256) (n : Fin 1024) :
    (reduces_S256x1024_S256 : S256x1024.Reduces [1] S256).lift (ix1 r) n = ix2 r n :=
  idx2_ext _ _ rfl rfl

theorem maxBlk_apply (r : Fin 256) :
    maxBlk v0 v3 v6 v11 (ix1 r) = rowMax (blkRow v0 r) (blkW v3) (blkBias v6) (blkText v11) := by
  unfold maxBlk rowMax
  refine (Ideal.multiReduction_maximumf_single (scoreBlk v0 v3 v6 v11) 0xFF800000#32 reduces_S256x1024_S256 (.inl rfl) rfl (ix1 r)).trans ?_
  have hrow : (scoreBlk v0 v3 v6 v11 ∘ (reduces_S256x1024_S256 : S256x1024.Reduces [1] S256).lift (ix1 r))
      = rowScore (blkRow v0 r) (blkW v3) (blkBias v6) (blkText v11) :=
    funext fun (n : Fin 1024) =>
      (congrArg (scoreBlk v0 v3 v6 v11) (lift_row r n)).trans (scoreBlk_apply v0 v3 v6 v11 r n)
  rw [hrow]
  rfl

/-- A row's value, kept as a column and broadcast back along the row, read at (r, n). -/
theorem column_apply (x : FVec Ideal S256 .f32) (r : Fin 256) (n : Fin 1024) :
    broadcastTo S256x1024 (shapeCast S256x1 x shapeCasts_S256_S256x1) broadcasts_S256x1_S256x1024 (ix2 r n) = x (ix1 r) :=
  (broadcastTo_a1_ab_apply _ broadcasts_S256x1_S256x1024 r n).trans (shapeCast_a_a1_apply x shapeCasts_S256_S256x1 r 0)

theorem expBlk_apply (r : Fin 256) (n : Fin 1024) :
    expBlk v0 v3 v6 v11 (ix2 r n) = rowExp (blkRow v0 r) (blkW v3) (blkBias v6) (blkText v11) n := by
  unfold expBlk rowExp
  show Ideal.exp (scoreBlk v0 v3 v6 v11 (ix2 r n) - broadcastTo S256x1024 _ broadcasts_S256x1_S256x1024 (ix2 r n)) = _
  rw [column_apply, scoreBlk_apply, maxBlk_apply]

theorem denBlk_apply (r : Fin 256) :
    denBlk v0 v3 v6 v11 (ix1 r) = rowDen (blkRow v0 r) (blkW v3) (blkBias v6) (blkText v11) := by
  unfold denBlk rowDen
  refine (Ideal.multiReduction_add_single (expBlk v0 v3 v6 v11) 0x00000000#32 reduces_S256x1024_S256 (.inl rfl) rfl (ix1 r)).trans ?_
  exact Finset.sum_congr rfl fun (n : Fin 1024) _ =>
    (congrArg (expBlk v0 v3 v6 v11) (lift_row r n)).trans (expBlk_apply v0 v3 v6 v11 r n)

theorem weightBlk_apply (r : Fin 256) (n : Fin 1024) :
    weightBlk v0 v3 v6 v11 (ix2 r n)
      = Ideal.div (rowExp (blkRow v0 r) (blkW v3) (blkBias v6) (blkText v11) n)
          (rowDen (blkRow v0 r) (blkW v3) (blkBias v6) (blkText v11)) := by
  unfold weightBlk
  refine (divf_apply _ _ _).trans ?_
  rw [column_apply, expBlk_apply, denBlk_apply]

theorem outBlk_apply (r : Fin 256) (t : Fin 1024) :
    outBlk v0 v3 v6 v11 (ix2 r t) = rowOut (blkRow v0 r) (blkW v3) (blkBias v6) (blkText v11) t := by
  unfold outBlk rowOut
  refine (mixDot_apply _ _ r t).trans (Finset.sum_congr rfl fun k _ => ?_)
  exact congrArg₂ (· * ·) (weightBlk_apply v0 v3 v6 v11 r k) (textMat_apply v11 k t)

/-- THE BODY'S STORED VALUE at entry (u, r, t) of its block: `rowOut` of row r of the visual block, the weights, the bias
    row and the text block. -/
theorem pay_apply (u : Fin 1) (r : Fin 256) (t : Fin 1024) :
    k0_pay1 (F := Ideal) v0 v3 v6 v11 (ix3 u r t) = rowOut (blkRow v0 r) (blkW v3) (blkBias v6) (blkText v11) t := by
  rw [pay_eq]
  exact (shapeCast_ab_1ab_apply _ shapeCasts_S256x1024_S1x256x1024 u r t).trans (outBlk_apply v0 v3 v6 v11 r t)

end Cert.CrossAttn.Block

end
-- ==== Proof.KernelArray.lean ====
/-
  From the blocks to the whole array: after the kernel's run its result array is `attend` of the four arguments.

  The grid has 8 × 4 points; point (b, j) works on batch b and on the 256 query rows from 256·j.  Its blocks are: rows
  256·j … 256·j + 255 of batch b of the visual features; the whole weight matrix; the bias (which the program has laid
  out as one row before the launch); batch b of the text; and, for the result, the same rows of batch b.  An entry of a
  block sits in its array at block index × block size + its coordinate inside the block, axis by axis.  So the value the
  body stores at entry (r, t) of its block — `rowOut` of the block's rows (`BlockValue.lean`) — is `attend` of the
  argument arrays at (b, 256·j + r, t): what point (b, j) writes back is its block of `attend`.  The 32 result blocks
  tile the result array (row v of batch b is in the block of point (b, v / 256)), so the array ends as `attend`.
-/
import proofs.«110933_j42391327212018_2_alg».proof.Proof.Gen.KernelIdeal.Value
import proofs.«110933_j42391327212018_2_alg».proof.Proof.BlockValue
import Idealize.ShloMosaic.Lib.StableHlo.Run

set_option maxRecDepth 16384

noncomputable section

namespace Cert.CrossAttn.Kernel

open Cert.KernelIdeal Cert.KernelIdeal.Gen Idealize.ShloMosaic Idealize.ShloMosaic.TcCoe Idealize.SL.Sem
open Idealize.ShloMosaic.ValueIdx Idealize.ShloMosaic.StableHlo Cert.CrossAttn
open Idealize.ShloMosaic.Pipeline (Dat)

variable (m : (ℓ : Loc nD τ sig) → Buf (Elt Ideal) ℓ) (ρ : Dev nD → PrngReg)

/-- Two indices of a rank-3 shape with the same coordinates are equal. -/
theorem idx3_ext {n0 n1 n2 : Nat} (f g : (⟨3, ![n0, n1, n2]⟩ : Shape).Idx) (h0 : (f 0).val = (g 0).val)
    (h1 : (f 1).val = (g 1).val) (h2 : (f 2).val = (g 2).val) : f = g :=
  funext fun a => Fin.ext (by match a with | ⟨0, _⟩ => exact h0 | ⟨1, _⟩ => exact h1 | ⟨2, _⟩ => exact h2)

theorem zero3 : (![0, 0, 0] : Fin 3 → Nat) = fun _ => 0 := funext fun a => by fin_cases a <;> rfl
theorem zero2 : (![0, 0] : Fin 2 → Nat) = fun _ => 0 := funext fun a => by fin_cases a <;> rfl

/-! ## Where the blocks sit -/

/-- The block indices over the grid, decided point by point: the visual and the result windows move together over
    (batch, row block); the text window follows the batch; the weights and the bias row stay put. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_4.index t (0 : Fin 3) ∧ win0_3.index t (1 : Fin 3) = 0
    ∧ win0_3.index t (2 : Fin 3) = 0
    ∧ win0_4.index t (2 : Fin 3) = 0 ∧ win0_4.index t (0 : Fin 3) < 8 ∧ win0_4.index t (1 : Fin 3) < 4 :=
  (by decide +kernel : ∀ t : Fin grid0.N, _)

/-- Every (batch, row block) pair is some point's. -/
theorem idx_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- The bias as the launch finds it: the one-row layout of the bias argument. -/
theorem biasRow_entry (c : Dev nD) :
    (V m c main_v0 : S1x1024.Idx → EReal)
      = shapeCast S1x1024 (m ((c : Thread nD τ).loc main_arg3)) shapeCasts_S1024_S1x1024 := by
  dsimp only [V, hostOps0]; after_results; rfl

/-! ## Each block read where it sits in its argument array -/

section point

variable (c : Dev nD) (t : Fin cfg0.N)

/-- An entry of the visual block is the visual argument at the entry's place in the array. -/
theorem visBlk_read (y : S1x256x2048.Idx) :
    iblk m c 0 t y = m ((c : Thread nD τ).loc main_arg0) (((cfg0.win 0).blk t).view.emb y) :=
  (show iblk m c 0 t y = V m c main_arg0 (((cfg0.win 0).blk t).view.emb y) from rfl).trans
    (congrFun (V_main_arg0 m c) _)

/-- An entry of the weights' block is the weight argument at the entry's place. -/
theorem wBlk_read (y : S1024x2048.Idx) :
    iblk m c 1 t y = m ((c : Thread nD τ).loc main_arg2) (((cfg0.win 1).blk t).view.emb y) :=
  (show iblk m c 1 t y = V m c main_arg2 (((cfg0.win 1).blk t).view.emb y) from rfl).trans
    (congrFun (V_main_arg2 m c) _)

/-- An entry of the bias row's block is the bias row at the entry's place. -/
theorem biasBlk_read (y : S1x1024.Idx) :
    iblk m c 2 t y = V m c main_v0 (((cfg0.win 2).blk t).view.emb y) := rfl

/-- An entry of the text block is the text argument at the entry's place. -/
theorem textBlk_read (y : S1x1024x1024.Idx) :
    iblk m c 3 t y = m ((c : Thread nD τ).loc main_arg1) (((cfg0.win 3).blk t).view.emb y) :=
  (show iblk m c 3 t y = V m c main_arg1 (((cfg0.win 3).blk t).view.emb y) from rfl).trans
    (congrFun (V_main_arg1 m c) _)

end point

/-- `rowOut` of equal rows is equal. -/
theorem rowOut_congr {xr xr' : Fin 2048 → EReal} {W W' : Fin 1024 → Fin 2048 → EReal} {bias bias' : Fin 1024 → EReal}
    {tx tx' : Fin 1024 → Fin 1024 → EReal} (h0 : xr = xr') (h1 : W = W') (h2 : bias = bias') (h3 : tx = tx')
    (q : Fin 1024) : rowOut xr W bias tx q = rowOut xr' W' bias' tx' q := by
  subst h0 h1 h2 h3; rfl

/-- WHAT POINT `t` WRITES BACK is its block of `attend` of the argument arrays. -/
theorem flushed_eq (c : Dev nD) (t : Fin cfg0.N) :
    (dats m 0 c).flushed 4 t = ((cfg0.win 4).blk t).view.read (Elt Ideal)
      (attend (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero zero3]
  simp only [View.ld_unit_zero (S := S1x256x2048) zero3, View.ld_unit_zero (S := S1024x2048) zero2,
    View.ld_unit_zero (S := S1x1024) zero2, View.ld_unit_zero (S := S1x1024x1024) zero3]
  obtain ⟨e00, e01, e02, e10, e11, e20, e21, e30, e31, e32, e42, l40, l41⟩ := idx_facts t
  funext y
  obtain ⟨u, r, q, rfl⟩ : ∃ (u : Fin 1) (r : Fin 256) (q : Fin 1024), y = ix3 u r q := ⟨y 0, y 1, y 2, eq_ix3 y⟩
  have hu : u.val = 0 := by omega
  -- the batch and the query row this entry belongs to
  have hb : win0_4.index t (0 : Fin 3) < 8 := l40
  have hv : win0_4.index t (1 : Fin 3) * 256 + r.val < 1024 := by have := r.isLt; omega
  have hemb : ((cfg0.win 4).blk t).view.emb (ix3 u r q)
      = ix3 (⟨win0_4.index t (0 : Fin 3), hb⟩ : Fin 8) (⟨win0_4.index t (1 : Fin 3) * 256 + r.val, hv⟩ : Fin 1024) q :=
    idx3_ext _ _
      (by show win0_4.index t (0 : Fin 3) * 1 + 1 * u.val = win0_4.index t (0 : Fin 3); omega)
      (by show win0_4.index t (1 : Fin 3) * 256 + 1 * r.val = win0_4.index t (1 : Fin 3) * 256 + r.val; omega)
      (by show win0_4.index t (2 : Fin 3) * 1024 + 1 * q.val = q.val; omega)
  show k0_pay1 (F := Ideal) (iblk m c 0 t) (iblk m c 1 t) (iblk m c 2 t) (iblk m c 3 t) (ix3 u r q)
    = attend (m ((c : Thread nD τ).loc main_arg0)) (m ((c : Thread nD τ).loc main_arg1))
        (m ((c : Thread nD τ).loc main_arg2)) (m ((c : Thread nD τ).loc main_arg3))
        (((cfg0.win 4).blk t).view.emb (ix3 u r q))
  rw [hemb]
  refine (Block.pay_apply (iblk m c 0 t) (iblk m c 1 t) (iblk m c 2 t) (iblk m c 3 t) u r q).trans ?_
  refine rowOut_congr ?_ ?_ ?_ ?_ q
  · funext d
    refine (visBlk_read m c t (ix3 (0 : Fin 1) r d)).trans (congrArg (m ((c : Thread nD τ).loc main_arg0)) ?_)
    exact idx3_ext _ _
      (by show win0_0.index t (0 : Fin 3) * 1 + 1 * 0 = win0_4.index t (0 : Fin 3); omega)
      (by show win0_0.index t (1 : Fin 3) * 256 + 1 * r.val = win0_4.index t (1 : Fin 3) * 256 + r.val; omega)
      (by show win0_0.index t (2 : Fin 3) * 2048 + 1 * d.val = d.val; omega)
  · funext k d
    refine (wBlk_read m c t (ix2 k d)).trans (congrArg (m ((c : Thread nD τ).loc main_arg2)) ?_)
    exact Block.idx2_ext _ _
      (by show win0_1.index t (0 : Fin 2) * 1024 + 1 * k.val = k.val; omega)
      (by show win0_1.index t (1 : Fin 2) * 2048 + 1 * d.val = d.val; omega)
  · funext k
    refine (biasBlk_read m c t (ix2 (0 : Fin 1) k)).trans ?_
    rw [show ((cfg0.win 2).blk t).view.emb (ix2 (0 : Fin 1) k) = ix2 (0 : Fin 1) k from Block.idx2_ext _ _
      (by show win0_2.index t (0 : Fin 2) * 1 + 1 * 0 = 0; omega)
      (by show win0_2.index t (1 : Fin 2) * 1024 + 1 * k.val = k.val; omega), biasRow_entry]
    exact shapeCast_a_1a_apply _ shapeCasts_S1024_S1x1024 (0 : Fin 1) k
  · funext n k
    refine (textBlk_read m c t (ix3 (0 : Fin 1) n k)).trans (congrArg (m ((c : Thread nD τ).loc main_arg1)) ?_)
    exact idx3_ext _ _
      (by show win0_3.index t (0 : Fin 3) * 1 + 1 * 0 = win0_4.index t (0 : Fin 3); omega)
      (by show win0_3.index t (1 : Fin 3) * 1024 + 1 * n.val = n.val; omega)
      (by show win0_3.index t (2 : Fin 3) * 1024 + 1 * k.val = k.val; omega)

/-! ## The result blocks tile the result array -/

/-- An index of the result array is in point `t`'s block iff each coordinate is in the block's range on its axis. -/
theorem mem_blk (t : Fin cfg0.N) (i : S8x1024x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v1).slice (win0_4.rect t)).set ↔ _
  rw [View.set_slice_whole, Rect.mem_set_unit]
  exact Iff.rfl

/-- Row v of batch b lies in the block of the point with block index (b, v / 256). -/
theorem cover (i : S8x1024x1024.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 1024 ≤ (i 2).val ∧ (i 2).val < win0_4.index t (2 : Fin 3) * 1024 + 1024
    omega

/-- THE RESULT ARRAY after the run is `attend` of the argument arrays. -/
theorem final (c : Dev nD) :
    (dats m 0 c).arrAt 4 cfg0.N
      = attend (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- THE KERNEL'S RUN: every weakly fair execution terminates with the result array at `attend` of the argument arrays
    and the argument arrays unchanged. -/
theorem run : θ_run defs (onTc (τ := τ) (main (F := Ideal))) ⟨m, fun _ => 0, ρ⟩ fun r => ∀ c : Dev nD,
      r.2.mem ((c : Thread nD τ).loc main_v1)
        = attend (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.CrossAttn.Kernel

end
-- ==== Proof.RefIsSpec.lean ====
/-
  The reference computes `attend`.

  The reference is a straight line of whole-array operations: a contraction of the visual features with the weights
  over the feature axis, the bias added along the last axis, a batched contraction with the text over the projected
  axis, the softmax along the last axis written out (maximum, subtraction, exponential, sum, quotient), and a batched
  contraction of the weights with the text over the text positions.  Read at an index (b, v, ·), each stage is the
  matching stage of `Spec.lean` for row (b, v) of the visual features and batch b of the text:
  a contraction is the sum over its one contracted coordinate, a broadcast reads the coordinate it keeps, the two
  reductions run over the last coordinate.  The reference takes the maximum with -∞ once more after the reduction;
  a fold of `max` from -∞ is already at least -∞, so nothing changes.  Its sum starts from the constant 0.
-/
import proofs.«110933_j42391327212018_2_alg».proof.Proof.Gen.ReferenceIdeal.Read
import proofs.«110933_j42391327212018_2_alg».proof.Proof.Spec

noncomputable section

namespace Cert.CrossAttn.Ref

open Cert.ReferenceIdeal Cert.ReferenceIdeal.Gen Cert.ReferenceIdeal.Read Idealize.ShloMosaic Idealize.ShloMosaic.ValueIdx Cert.CrossAttn

/-- Two indices of a rank-1 shape with the same coordinate are equal. -/
theorem idx1_ext {n0 : Nat} (f g : (⟨1, ![n0]⟩ : Shape).Idx) (h0 : (f 0).val = (g 0).val) : f = g :=
  funext fun a => Fin.ext (by match a with | ⟨0, _⟩ => exact h0)

/-- Two indices of a rank-2 shape with the same coordinates are equal. -/
theorem idx2_ext {n0 n1 : Nat} (f g : (⟨2, ![n0, n1]⟩ : Shape).Idx) (h0 : (f 0).val = (g 0).val)
    (h1 : (f 1).val = (g 1).val) : f = g :=
  funext fun a => Fin.ext (by match a with | ⟨0, _⟩ => exact h0 | ⟨1, _⟩ => exact h1)

/-- Two indices of a rank-3 shape with the same coordinates are equal. -/
theorem idx3_ext {n0 n1 n2 : Nat} (f g : (⟨3, ![n0, n1, n2]⟩ : Shape).Idx) (h0 : (f 0).val = (g 0).val)
    (h1 : (f 1).val = (g 1).val) (h2 : (f 2).val = (g 2).val) : f = g :=
  funext fun a => Fin.ext (by match a with | ⟨0, _⟩ => exact h0 | ⟨1, _⟩ => exact h1 | ⟨2, _⟩ => exact h2)

variable (x0 : (⟨S8x1024x2048, .f32⟩ : BufTy).Contents (Elt Ideal)) (x1 : (⟨S8x1024x1024, .f32⟩ : BufTy).Contents (Elt Ideal))
  (x2 : (⟨S1024x2048, .f32⟩ : BufTy).Contents (Elt Ideal)) (x3 : (⟨S1024, .f32⟩ : BufTy).Contents (Elt Ideal))

/-- Row (b, v) of the visual features. -/
abbrev visRow (b : Fin 8) (v : Fin 1024) : Fin 2048 → EReal := fun d => x0 (ix3 b v d)
/-- The weights by coordinates. -/
abbrev wMat : Fin 1024 → Fin 2048 → EReal := fun t d => x2 (ix2 t d)
/-- The bias by coordinate. -/
abbrev biasVec : Fin 1024 → EReal := fun t => x3 (ix1 t)
/-- Batch b of the text. -/
abbrev textOf (b : Fin 8) : Fin 1024 → Fin 1024 → EReal := fun n t => x1 (ix3 b n t)

/-- The projected query with its bias, at (b, v, t). -/
theorem proj_eq (b : Fin 8) (v t : Fin 1024) :
    val_main_v3 (F := Ideal) x0 x2 x3 (ix3 b v t) = rowProj (visRow x0 b v) (wMat x2) (biasVec x3) t := by
  rw [val_main_v3_apply, val_main_v0_apply, val_main_v2_apply, val_main_v1_apply, Ideal.addf_def]
  unfold rowProj
  refine congrArg₂ (· + ·) (Finset.sum_congr rfl fun k _ => ?_) ?_
  · exact congrArg₂ (· * ·) (congrArg x0 (idx3_ext _ _ rfl rfl rfl)) (congrArg x2 (idx2_ext _ _ rfl rfl))
  · exact congrArg x3 (idx1_ext _ _ rfl)

/-- The score of row (b, v) against text position n. -/
theorem score_eq (b : Fin 8) (v n : Fin 1024) :
    val_main_v4 (F := Ideal) x0 x1 x2 x3 (ix3 b v n)
      = rowScore (visRow x0 b v) (wMat x2) (biasVec x3) (textOf x1 b) n := by
  rw [val_main_v4_apply]
  unfold rowScore
  refine Finset.sum_congr rfl fun k _ => ?_
  rw [show lidx_main_v4 (ix3 b v n) k = ix3 b v k from idx3_ext _ _ rfl rfl rfl, proj_eq,
    show ridx_main_v4 (ix3 b v n) k = ix3 b n k from idx3_ext _ _ rfl rfl rfl]

/-- The row's maximum, with the reference's second `max` against -∞ absorbed. -/
theorem max_eq (b : Fin 8) (v : Fin 1024) :
    val_main_v7 (F := Ideal) x0 x1 x2 x3 (ix2 b v)
      = rowMax (visRow x0 b v) (wMat x2) (biasVec x3) (textOf x1 b) := by
  rw [val_main_v7_apply, val_main_v6_apply, val_main_cst_0_apply]
  unfold val_main_v5
  rw [Host.reduce_eq_fold_single FloatOps.maximumf _ _ reducesTo_S8x1024x1024_S8x1024_d2 (by decide) h_S_]
  have hrow : (val_main_v4 (F := Ideal) x0 x1 x2 x3 ∘
      (by decide : S8x1024x1024.Reduces [2] S8x1024).lift (ix2 b v))
        = rowScore (visRow x0 b v) (wMat x2) (biasVec x3) (textOf x1 b) := by
    funext n
    show val_main_v4 (F := Ideal) x0 x1 x2 x3 _ = _
    rw [show (by decide : S8x1024x1024.Reduces [2] S8x1024).lift (ix2 b v) n = ix3 b v n from
      idx3_ext _ _ rfl rfl rfl]
    exact score_eq x0 x1 x2 x3 b v n
  rw [hrow]
  exact max_fold_max _ _ _

/-- The unnormalised weight of text position n for row (b, v). -/
theorem exp_eq (b : Fin 8) (v n : Fin 1024) :
    val_main_v11 (F := Ideal) x0 x1 x2 x3 (ix3 b v n)
      = rowExp (visRow x0 b v) (wMat x2) (biasVec x3) (textOf x1 b) n := by
  rw [val_main_v11_apply, val_main_v10_apply, val_main_v9_apply, val_main_v8_apply,
    show idx_main_v8 (idx_main_v9 (ix3 b v n)) = ix2 b v from idx2_ext _ _ rfl rfl, max_eq, score_eq,
    Ideal.hostUnary_exp_def, Ideal.subf_def]
  rfl

/-- The sum of the row's weights; the reference starts it from the constant 0. -/
theorem den_eq (b : Fin 8) (v : Fin 1024) :
    val_main_v12 (F := Ideal) x0 x1 x2 x3 (ix2 b v)
      = rowDen (visRow x0 b v) (wMat x2) (biasVec x3) (textOf x1 b) := by
  rw [val_main_v12_apply, val_main_cst_1_apply, Ideal.ofBits_def, Ideal.ofBits_zero_f32, zero_add]
  unfold rowDen
  refine Finset.sum_congr rfl fun k _ => ?_
  rw [show idx_main_v12 (ix2 b v) k = ix3 b v k from idx3_ext _ _ rfl rfl rfl, exp_eq]

/-- The normalised weight of text position n for row (b, v). -/
theorem weight_eq (b : Fin 8) (v n : Fin 1024) :
    val_main_v15 (F := Ideal) x0 x1 x2 x3 (ix3 b v n)
      = Ideal.div (rowExp (visRow x0 b v) (wMat x2) (biasVec x3) (textOf x1 b) n)
          (rowDen (visRow x0 b v) (wMat x2) (biasVec x3) (textOf x1 b)) := by
  rw [val_main_v15_apply, val_main_v14_apply, val_main_v13_apply,
    show idx_main_v13 (idx_main_v14 (ix3 b v n)) = ix2 b v from idx2_ext _ _ rfl rfl, den_eq, exp_eq,
    Ideal.hostDivf_def]

/-- The reference's result at (b, v, t). -/
theorem out_eq (b : Fin 8) (v t : Fin 1024) :
    val_main_v16 (F := Ideal) x0 x1 x2 x3 (ix3 b v t)
      = rowOut (visRow x0 b v) (wMat x2) (biasVec x3) (textOf x1 b) t := by
  rw [val_main_v16_apply]
  unfold rowOut
  refine Finset.sum_congr rfl fun k _ => ?_
  rw [show lidx_main_v16 (ix3 b v t) k = ix3 b v k from idx3_ext _ _ rfl rfl rfl, weight_eq,
    show ridx_main_v16 (ix3 b v t) k = ix3 b k t from idx3_ext _ _ rfl rfl rfl]

/-- The reference's result array is `attend` of its four arguments. -/
theorem result_eq : val_main_v16 (F := Ideal) x0 x1 x2 x3 = attend x0 x1 x2 x3 := by
  funext i
  obtain ⟨b, v, t, rfl⟩ : ∃ (b : Fin 8) (v t : Fin 1024), i = ix3 b v t := ⟨i 0, i 1, i 2, eq_ix3 i⟩
  exact out_eq x0 x1 x2 x3 b v t

end Cert.CrossAttn.Ref

end
-- ==== Proof.lean ====
/-
  Cross-attention of visual rows over text, kernel against reference, on the extended reals.

  Both programs take visual features [8, 1024, 2048], text features [8, 1024, 1024], projection weights [1024, 2048]
  and a bias [1024], and compute, for every batch b and visual row v:
      q = vis[b, v, :] · Wᵀ + bias,   s[n] = q · text[b, n, :],   w = softmax(s),   out[b, v, :] = ∑ n, w[n] · text[b, n, :]
  with the softmax written out as exp (s - max s) / ∑ exp (s - max s).  That function of the four arrays is `attend`
  (Proof/Spec.lean).

  The kernel computes it block by block, 256 visual rows of one batch per grid point, rounding the operands of its
  three matrix products to a shorter float format; on the extended reals a change of format is the identity and a
  product accumulated from zero is the plain sum of products, so each block is its block of `attend`
  (Proof/BlockDots.lean, Proof/BlockValue.lean) and the blocks tile the result (Proof/KernelArray.lean).  The reference
  computes it with whole-array operations; it takes one more maximum against -∞, which a fold from -∞ absorbs, and
  starts its sum from the constant 0 (Proof/RefIsSpec.lean).  No law that needs finiteness is used: the two sides are
  the same sums, the same maximum, the same exponential and the same quotient, entry by entry.

  The three frames are the generated ones (the reference's is its generated run with the result dropped); the
  idealization rewrote nothing, so `preserves` is `True`.
-/
import proofs.«110933_j42391327212018_2_alg».proof.Defs
import proofs.«110933_j42391327212018_2_alg».proof.Proof.Gen.Kernel
import proofs.«110933_j42391327212018_2_alg».proof.Proof.Gen.Kernel.Frame
import proofs.«110933_j42391327212018_2_alg».proof.Proof.Gen.KernelIdeal
import proofs.«110933_j42391327212018_2_alg».proof.Proof.Gen.KernelIdeal.Frame
import proofs.«110933_j42391327212018_2_alg».proof.Proof.Gen.KernelIdeal.Value
import proofs.«110933_j42391327212018_2_alg».proof.Proof.Gen.ReferenceIdeal
import proofs.«110933_j42391327212018_2_alg».proof.Proof.Gen.ReferenceIdeal.Run
import proofs.«110933_j42391327212018_2_alg».proof.Proof.Gen.ReferenceIdeal.Read
import proofs.«110933_j42391327212018_2_alg».proof.Proof.Gen.Pre_finite_inputs
import proofs.«110933_j42391327212018_2_alg».proof.Proof.KernelArray
import proofs.«110933_j42391327212018_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments, the kernel's result array and the reference's are both `attend` of
    the arguments. -/
theorem algebraic : Cert.algebraic_KernelIdeal_ReferenceIdeal := by
  intro m ρ m' ρ' _ hagree
  refine ⟨_, Cert.CrossAttn.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.CrossAttn.Ref.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
